-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x128 : Shape := ⟨2, ![16384, 128]⟩
abbrev S128x128 : Shape := ⟨2, ![128, 128]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S16384x16384 .f32) (main_arg1 : FVec F S16384x128 .f32) (main_arg2 : FVec F S128x128 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S16384x16384 : Shape := ⟨2, ![16384, 16384]⟩
abbrev S16384x128 : Shape := ⟨2, ![16384, 128]⟩
abbrev S128x128 : Shape := ⟨2, ![128, 128]⟩
abbrev S2048x128 : Shape := ⟨2, ![2048, 128]⟩
abbrev S2048x1024 : Shape := ⟨2, ![2048, 1024]⟩
abbrev S1024x128 : Shape := ⟨2, ![1024, 128]⟩

abbrev nBuf : Space → Nat
  | .hbm => 5
  | .vmem => 10
  | .smem => 0
  | _ => 0

abbrev bufTy : (tb : Table) → Fin (tcTables nBuf tb) → BufTy
  | .hbm, ⟨0, _⟩ => ⟨S16384x16384, .f32⟩
  | .hbm, ⟨1, _⟩ => ⟨S16384x128, .f32⟩
  | .hbm, ⟨2, _⟩ => ⟨S128x128, .f32⟩
  | .hbm, ⟨3, _⟩ => ⟨S16384x128, .f32⟩
  | .hbm, ⟨4, _⟩ => ⟨S16384x128, .f32⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S2048x128, .f32⟩
  | .local _ .vmem, ⟨4, _⟩ => ⟨S2048x128, .f32⟩
  | .local _ .vmem, ⟨5, _⟩ => ⟨S2048x1024, .f32⟩
  | .local _ .vmem, ⟨6, _⟩ => ⟨S2048x1024, .f32⟩
  | .local _ .vmem, ⟨7, _⟩ => ⟨S16384x128, .f32⟩
  | .local _ .vmem, ⟨8, _⟩ => ⟨S2048x128, .f32⟩
  | .local _ .vmem, ⟨9, _⟩ => ⟨S2048x128, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 16], ![false, false]⟩

def k1_mult1 (i : grid1.Coords) : BitVec 32 :=
  let arg1 : BitVec 32 := BitVec.ofNat 32 (i 1).val
  let c1024_i32 : BitVec 32 := 1024#32
  let v5 : BitVec 32 := Scalar.muli arg1 c1024_i32
  v5
def k1_off1 (i : grid1.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16384x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2048x1024_S2048x1024_0_0 : ∀ a, (![0, 0] : Fin 2 → Nat) a + S2048x1024.size a ≤ S2048x1024.size a
  h_S2048x1024 : 0 < S2048x1024.numel
  h_S1024x128 : 0 < S1024x128.numel
  shapeCasts_S1024x128_S1024x128 : S1024x128.ShapeCasts S1024x128
  shapeCasts_S2048x128_S2048x128 : S2048x128.ShapeCasts S2048x128
  dot_S2048x128_S128x128_S2048x128_1_0_0_1_n_n_wf : DotDims.WF S2048x128 S128x128 S2048x128 [1] [0] [0] [1] [] []
  dot_S2048x1024_S1024x128_S2048x128_1_0_0_1_n_n_wf : DotDims.WF S2048x1024 S1024x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .f32 = 32 ∨ (Rect.block (s := S16384x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S16384x128.size a
  hwx0_2 : ∀ i : grid0.Coords, EltTy.bits .f32 = 32 ∨ (Rect.block (s := S16384x128) S2048x128.size (cc0_transform_2 i) (hinb0_2 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x128.size a ≤ S16384x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S16384x16384.size a
  hwx1_0 : ∀ i : grid1.Coords, EltTy.bits .f32 = 32 ∨ (Rect.block (s := S16384x16384) S2048x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x128.size a ≤ S16384x128.size a
  hwx1_1 : ∀ i : grid1.Coords, EltTy.bits .f32 = 32 ∨ (Rect.block (s := S16384x128) S16384x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S16384x128.size a
  hwx1_2 : ∀ i : grid1.Coords, EltTy.bits .f32 = 32 ∨ (Rect.block (s := S16384x128) S2048x128.size (cc1_transform_2 i) (hinb1_2 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_arg1) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S16384x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2048x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x16384 : Shape := ⟨2, ![16384, 16384]⟩
abbrev S16384x128 : Shape := ⟨2, ![16384, 128]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x128, .f32⟩
  | .hbm, ⟨2, _⟩ => ⟨S128x128, .f32⟩
  | .hbm, ⟨3, _⟩ => ⟨S16384x128, .f32⟩
  | .hbm, ⟨4, _⟩ => ⟨S16384x128, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S16384x128_S128x128_S16384x128_1_0_0_1_n_n_wf : DotDims.WF S16384x128 S128x128 S16384x128 [1] [0] [0] [1] [] []
  dot_S16384x16384_S16384x128_S16384x128_1_0_0_1_n_n_wf : DotDims.WF S16384x16384 S16384x128 S16384x128 [1] [0] [0] [1] [] []

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf

class Facts : Prop extends Facts₀ where

variable [Facts]
-- ==== Proof.LibTileStats.lean ====
/-
  General lemmas for sums taken tile by tile.

  * A lane reduction along the FIRST axis of an [a, b] array of extended reals, read at a column: the column's sum.
  * A sum over m · n rows is the sum over m tiles of the sums over each tile's n rows.
  * A sum over the first k + 1 tiles is the sum over the first k tiles plus tile k's.
-/
import Idealize.ShloMosaic.PureOps.Ideal.Laws
import Idealize.ShloMosaic.Lib.ValueIdx
import Mathlib.Algebra.BigOperators.Fin
import Mathlib.Logic.Equiv.Fin.Basic

noncomputable section

namespace Cert.Lib.TileStats

open Idealize.ShloMosaic Idealize.ShloMosaic.ValueIdx

/-- A sum over the first axis of an `[a, b]` array of extended reals, read at column `q`: the column's sum. -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ y : Fin a, src (ix2 y q) := by
  refine (Ideal.multiReduction_add_single src acc h hφ hacc (ix1 q)).trans ?_
  refine Finset.sum_congr rfl fun k _ => congrArg src (funext fun ax => Fin.ext ?_)
  match ax with
  | ⟨0, _⟩ => rfl
  | ⟨1, _⟩ => rfl

/-- The same for a single-precision array whose accumulator is the zero pattern, the proof argument typed as it is printed. -/
theorem colSum_f32_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ y : Fin a, src (ix2 y q) :=
  colSum_apply src _ h hφ hacc q

/-- Row `y` of tile `t` among tiles of `n` rows, kept below `N` by a remainder that does nothing on a real tile. -/
def tileRow (N n : ℕ) (hN : 0 < N) (t : ℕ) (y : Fin n) : Fin N := ⟨(t * n + y.val) % N, Nat.mod_lt _ hN⟩

theorem tileRow_val {N n : ℕ} (hN : 0 < N) (t : ℕ) (y : Fin n) (h : t * n + y.val < N) :
    (tileRow N n hN t y).val = t * n + y.val := Nat.mod_eq_of_lt h

/-- A sum over `m · n` rows, tile by tile. -/
theorem sum_tiles {M : Type*} [AddCommMonoid M] (m n N : ℕ) (hmn : m * n = N) (hN : 0 < N) (f : Fin N → M) :
    ∑ r : Fin N, f r = ∑ t ∈ Finset.range m, ∑ y : Fin n, f (tileRow N n hN t y) := by
  subst hmn
  rw [← Fin.sum_univ_eq_sum_range (fun t => ∑ y : Fin n, f (tileRow (m * n) n hN t y)) m]
  rw [← Equiv.sum_comp finProdFinEquiv f, Fintype.sum_prod_type]
  refine Finset.sum_congr rfl fun t _ => Finset.sum_congr rfl fun y _ => congrArg f (Fin.ext ?_)
  have hlt : t.val * n + y.val < m * n := by
    have h1 : t.val + 1 ≤ m := t.isLt
    calc t.val * n + y.val < t.val * n + n := by have := y.isLt; omega
      _ = (t.val + 1) * n := by ring
      _ ≤ m * n := Nat.mul_le_mul_right n h1
  rw [tileRow_val hN t.val y hlt]
  show y.val + n * t.val = t.val * n + y.val
  rw [Nat.mul_comm, Nat.add_comm]

/-- One more tile. -/
theorem sum_range_succ_tile {M : Type*} [AddCommMonoid M] (g : ℕ → M) (k : ℕ) :
    ∑ t ∈ Finset.range (k + 1 + 1), g t = (∑ t ∈ Finset.range (k + 1), g t) + g (k + 1) :=
  Finset.sum_range_succ g (k + 1)

end Cert.Lib.TileStats

end
-- ==== Proof.Spec.lean ====
/-
  The function both programs compute, on the extended reals.

  For an adjacency array A [16384, 16384], a feature array X [16384, 128] and a weight array W [128, 128]:

    support X W (r, d) = the sum over e < 128 of X (r, e) · W (e, d)
    agg A S (r, d)     = the sum over j < 16384 of A (r, j) · S (j, d)

  and the result is agg A (support X W). The second sum is also taken tile by tile: the 16384 columns of A are 16
  tiles of 1024, and the sum over the first n tiles, each tile summed first, grows by one tile at a time and after
  16 tiles is the whole sum. Only commutativity and associativity of addition are used, which hold on all extended
  reals, so no entry needs to be finite.
-/
import proofs.«133580_j35304631173973_2_alg».proof.Proof.LibTileStats
import Idealize.ShloMosaic.PureOps.Ideal
import Idealize.ShloMosaic.Lib.ValueIdx

noncomputable section

namespace Cert.GraphConv

open Idealize.ShloMosaic Idealize.ShloMosaic.ValueIdx Cert.Lib.TileStats

abbrev SA : Shape := ⟨2, ![16384, 16384]⟩
abbrev SX : Shape := ⟨2, ![16384, 128]⟩
abbrev SW : Shape := ⟨2, ![128, 128]⟩

/-- Entry (r, d) of the product X · W. -/
def supportAt (X : SX.Idx → EReal) (W : SW.Idx → EReal) (r : Fin 16384) (d : Fin 128) : EReal :=
  ∑ e : Fin 128, X (ix2 r e) * W (ix2 e d)

/-- The product X · W as an array. -/
def support (X : SX.Idx → EReal) (W : SW.Idx → EReal) : SX.Idx → EReal :=
  fun i => supportAt X W ⟨(i 0).val, (i 0).isLt⟩ ⟨(i 1).val, (i 1).isLt⟩

/-- Entry (r, d) of the product A · S. -/
def aggAt (A : SA.Idx → EReal) (S : SX.Idx → EReal) (r : Fin 16384) (d : Fin 128) : EReal :=
  ∑ j : Fin 16384, A (ix2 r j) * S (ix2 j d)

/-- The product A · S as an array. -/
def agg (A : SA.Idx → EReal) (S : SX.Idx → EReal) : SX.Idx → EReal :=
  fun i => aggAt A S ⟨(i 0).val, (i 0).isLt⟩ ⟨(i 1).val, (i 1).isLt⟩

theorem pos16384 : 0 < 16384 := by decide

/-- Column j of tile kb, among 16 tiles of 1024 columns. -/
abbrev col (kb : ℕ) (j : Fin 1024) : Fin 16384 := tileRow 16384 1024 pos16384 kb j

/-- Tile kb's share of entry (r, d) of A · S. -/
def tileTerm (A : SA.Idx → EReal) (S : SX.Idx → EReal) (r : Fin 16384) (d : Fin 128) (kb : ℕ) : EReal :=
  ∑ j : Fin 1024, A (ix2 r (col kb j)) * S (ix2 (col kb j) d)

/-- The first n tiles' share of entry (r, d). -/
def aggTiles (n : ℕ) (A : SA.Idx → EReal) (S : SX.Idx → EReal) (r : Fin 16384) (d : Fin 128) : EReal :=
  ∑ kb ∈ Finset.range n, tileTerm A S r d kb

/-- The first tile alone, added to zero. -/
theorem aggTiles_one (A : SA.Idx → EReal) (S : SX.Idx → EReal) (r : Fin 16384) (d : Fin 128) :
    (0 : EReal) + tileTerm A S r d 0 = aggTiles 1 A S r d := by
  unfold aggTiles
  rw [Finset.sum_range_one, zero_add]

/-- One more tile. -/
theorem aggTiles_succ (n : ℕ) (A : SA.Idx → EReal) (S : SX.Idx → EReal) (r : Fin 16384) (d : Fin 128) :
    aggTiles n A S r d + tileTerm A S r d n = aggTiles (n + 1) A S r d := by
  unfold aggTiles
  rw [Finset.sum_range_succ]

/-- All 16 tiles together are the whole sum. -/
theorem aggTiles_all (A : SA.Idx → EReal) (S : SX.Idx → EReal) (r : Fin 16384) (d : Fin 128) :
    aggTiles 16 A S r d = aggAt A S r d := by
  unfold aggTiles tileTerm aggAt
  exact (sum_tiles 16 1024 16384 (by decide) pos16384 (fun j => A (ix2 r j) * S (ix2 j d))).symm

end Cert.GraphConv

end
-- ==== Proof.RefValue.lean ====
/-
  The reference program's result, at the ideal instance, is agg A (support X W): each of its two matrix products
  reads at an index as the sum over its one contracted axis.
-/
import proofs.«133580_j35304631173973_2_alg».proof.Proof.Spec
import proofs.«133580_j35304631173973_2_alg».proof.Proof.Gen.ReferenceIdeal.Read

noncomputable section

namespace Cert.ReferenceIdeal.RefValue

open Idealize.ShloMosaic Idealize.ShloMosaic.ValueIdx Cert.ReferenceIdeal Cert.ReferenceIdeal.Read Cert.GraphConv

/-- The inner product X · W is the support array. -/
theorem val_v0_eq (X : SX.Idx → EReal) (W : SW.Idx → EReal) : val_main_v0 (F := Ideal) X W = support X W := by
  funext i
  rw [val_main_v0_apply]
  unfold support supportAt
  refine Finset.sum_congr rfl fun k _ => ?_
  have e1 : lidx_main_v0 i k = ix2 (⟨(i 0).val, (i 0).isLt⟩ : Fin 16384) k :=
    funext fun a => Fin.ext (by match a with | ⟨0, _⟩ => rfl | ⟨1, _⟩ => rfl)
  have e2 : ridx_main_v0 i k = ix2 k (⟨(i 1).val, (i 1).isLt⟩ : Fin 128) :=
    funext fun a => Fin.ext (by match a with | ⟨0, _⟩ => rfl | ⟨1, _⟩ => rfl)
  rw [e1, e2]

/-- The outer product A · (X · W) is the aggregate of the support array. -/
theorem val_v1_eq (A : SA.Idx → EReal) (X : SX.Idx → EReal) (W : SW.Idx → EReal) :
    val_main_v1 (F := Ideal) A X W = agg A (support X W) := by
  funext i
  rw [val_main_v1_apply, val_v0_eq]
  unfold agg aggAt
  refine Finset.sum_congr rfl fun k _ => ?_
  have e1 : lidx_main_v1 i k = ix2 (⟨(i 0).val, (i 0).isLt⟩ : Fin 16384) k :=
    funext fun a => Fin.ext (by match a with | ⟨0, _⟩ => rfl | ⟨1, _⟩ => rfl)
  have e2 : ridx_main_v1 i k = ix2 k (⟨(i 1).val, (i 1).isLt⟩ : Fin 128) :=
    funext fun a => Fin.ext (by match a with | ⟨0, _⟩ => rfl | ⟨1, _⟩ => rfl)
  rw [e1, e2]

end Cert.ReferenceIdeal.RefValue

end
-- ==== Proof.KRun.lean ====
/-
  The kernel program's run through its two regions, with the result array named.

  The program is two regions run one after the other. After the second region every unscoped buffer holds the last
  boundary's contents; the result array is the second pipeline's output array, so it holds what that pipeline's
  write-backs leave, and the three argument arrays, which no region writes, are as launched.
-/
import proofs.«133580_j35304631173973_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result array is the second pipeline's output array: after the second region it holds what the write-backs leave. -/
theorem W2_main_v1 (c : Dev nD) :
    W2 m ρ c (Proc.devRef .tc main_v1) = (dat1 (V1 m ρ) c).arrAt 2 cfg1.N :=
  W2_arr m ρ c 2

set_option backward.isDefEq.respectTransparency.types false in
/-- Every weakly fair execution of the program terminates, nothing faulting, with the result array at the second
    pipeline's final output array and the argument arrays as launched. -/
theorem run_named : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_main_v1 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.KernelIdeal.KRun

end
-- ==== Proof.LibDotSum.lean ====
/-
  A matrix product with ONE contracted axis, read at an index as a plain sum over that axis: for the host's
  product and for the matrix unit's product into a zero accumulator, both on the extended reals. The caller names the
  two operands' indices at contraction position k; the lemma re-indexes the sum by the axis's one coordinate.
-/
import Idealize.ShloMosaic.Lib.ValueIdx
import Idealize.ShloMosaic.Lib.KernelVsHost
import Idealize.ShloMosaic.PureOps.Ideal.Laws

namespace Idealize.ShloMosaic.DotSum

open Idealize.ShloMosaic Idealize.ShloMosaic.ValueIdx

/-- The host's product at an output index is the sum over the contracted axis of the operands' products, each read
    where the dimension numbers put it. -/
theorem dotGeneral_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    Host.dotGeneral d none x w j = ∑ k : Fin K, x (li k) * w (ri k) := by
  show FloatOps.dotGeneral d none _ x w j = _
  rw [Ideal.dotGeneral_apply, ← Equiv.sum_comp (contrEquiv1 d K hr hs).symm]
  exact Finset.sum_congr rfl fun k _ => by rw [hl k, hw k]

/-- The matrix unit's product into a zero accumulator likewise (its operands may be of a narrower format: on the
    extended reals a format is no restriction). -/
theorem matmul_zero_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d none x w (constant so .f32 0x00000000#32) j = ∑ k : Fin K, x (li k) * w (ri k) := by
  rw [matmul_zero_eq_dotGeneral]
  exact dotGeneral_eq_sum d K hr hs x w j li ri hl hw

end Idealize.ShloMosaic.DotSum
-- ==== Proof.Support.lean ====
/-
  The first region's value at the ideal instance.

  Its body multiplies a 2048-row block of the feature array by the whole weight array into a zero accumulator (the
  change of format of both operands is the identity on the extended reals), so entry (p, q) of what it stores is the
  sum over e < 128 of the block's (p, e) times the weight's (e, q). Point t of the 8-point grid reads rows
  2048 t … 2048 t + 2047 and writes the same rows of the output, so what it writes back is block t of the support
  array of the region's two argument arrays; the 8 blocks cover the output array, which therefore ends as the support
  array. Stated for any contents V the region is entered with.
-/
import proofs.«133580_j35304631173973_2_alg».proof.Proof.Spec
import proofs.«133580_j35304631173973_2_alg».proof.Proof.LibDotSum
import proofs.«133580_j35304631173973_2_alg».proof.Proof.Gen.KernelIdeal.Frame
import Idealize.ShloMosaic.Lib.Pipeline.Value
import Idealize.ShloMosaic.Lib.ValueIdx

set_option maxRecDepth 16384

noncomputable section

namespace Cert.KernelIdeal.SupportValue

open Cert.KernelIdeal Cert.KernelIdeal.Gen Cert.GraphConv
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-! ## The body's product, entry by entry -/

local notation "d0" => dot_S2048x128_S128x128_S2048x128_1_0_0_1_n_n

theorem lhs0_0 (i : S2048x128.Idx) (q : (d0).contr.Idx) : ((d0).lhsIdx i q 0).val = (i 0).val := by
  unfold DotDims.lhsIdx
  rw [dif_neg (show ¬(0 : Fin S2048x128.rank) ∈ (d0).lhsBatch by decide), dif_pos (show (0 : Fin S2048x128.rank) ∈ (d0).lhsNonContracting by decide)]
  rfl
theorem lhs0_1 (i : S2048x128.Idx) (q : (d0).contr.Idx) : ((d0).lhsIdx i q 1).val = (q ⟨0, by decide⟩).val :=
  (d0).lhsIdx_val_of_single rfl i q
theorem rhs0_0 (i : S2048x128.Idx) (q : (d0).contr.Idx) : ((d0).rhsIdx i q 0).val = (q ⟨0, by decide⟩).val :=
  (d0).rhsIdx_val_of_single rfl i q
theorem rhs0_1 (i : S2048x128.Idx) (q : (d0).contr.Idx) : ((d0).rhsIdx i q 1).val = (i 1).val := by
  unfold DotDims.rhsIdx
  rw [dif_neg (show ¬(1 : Fin S128x128.rank) ∈ (d0).rhsBatch by decide), dif_pos (show (1 : Fin S128x128.rank) ∈ (d0).rhsNonContracting by decide)]
  rfl

/-- Entry (p, q) of the body's stored value: the sum over the 128 contracted positions. -/
theorem pay1_apply (x0 : Vec Ideal S2048x128 .f32) (x1 : Vec Ideal S128x128 .f32) (p : Fin 2048) (q : Fin 128) :
    k0_pay1 (F := Ideal) x0 x1 (ix2 p q) = ∑ e : Fin 128, x0 (ix2 p e) * x1 (ix2 e q) := by
  unfold k0_pay1
  refine (DotSum.matmul_zero_eq_sum (d0) 128 rfl rfl (truncf .bf16 x0 bitsLt_bf16_f32) (truncf .bf16 x1 bitsLt_bf16_f32) (ix2 p q)
    (fun e => ix2 p e) (fun e => ix2 e q) (fun k => ?_) (fun k => ?_)).trans rfl
  · have hk := contrEquiv1_symm_val (d0) 128 rfl rfl k
    exact funext fun a => Fin.ext (by
      match a with
      | ⟨0, _⟩ => exact lhs0_0 _ _
      | ⟨1, _⟩ => exact (lhs0_1 _ _).trans hk)
  · have hk := contrEquiv1_symm_val (d0) 128 rfl rfl k
    exact funext fun a => Fin.ext (by
      match a with
      | ⟨0, _⟩ => exact (rhs0_0 _ _).trans hk
      | ⟨1, _⟩ => exact rhs0_1 _ _)

/-! ## Blocks to the array -/

variable (V : (c : Dev nD) → (b : Ref sig .tc) → Buf (Elt Ideal) ((c : Thread nD τ).loc b))

/-- Where each window's block sits at point t: the feature block and the output block are block t along the rows, the
    weight block is the whole array. Decided over the 8 points. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the support array of the two arrays the region is entered with. -/
theorem flushed_eq (c : Dev nD) (t : Fin cfg0.N) :
    (dat0 V c).flushed 2 t = ((cfg0.win 2).blk t).view.read (Elt Ideal) (support (V c main_arg1) (V c main_arg2)) := by
  show (cfg0.win 2).cut (grid0.coords t) ((dat0 V c).after 2 t) = _
  rw [after0_2]
  unfold out0_2
  rw [View.canon_unit_zero hz]
  simp only [View.ld_unit_zero (S := S2048x128) hz, View.ld_unit_zero (S := S128x128) hz]
  obtain ⟨e0, e1, e2, e3, e4, e5⟩ := idx_facts t
  funext j
  obtain ⟨p, q, rfl⟩ : ∃ (p : Fin 2048) (q : Fin 128), j = ix2 p q := ⟨j 0, j 1, eq_ix2 j⟩
  refine (pay1_apply (iblk0 V c 0 t) (iblk0 V c 1 t) p q).trans ?_
  show _ = support (V c main_arg1) (V c main_arg2) (((cfg0.win 2).blk t).view.emb (ix2 p q))
  unfold support supportAt
  refine Finset.sum_congr rfl fun e _ => ?_
  have h0 : ((cfg0.win 0).blk t).view.emb (ix2 p e)
      = ix2 (⟨(((cfg0.win 2).blk t).view.emb (ix2 p q) 0).val, (((cfg0.win 2).blk t).view.emb (ix2 p q) 0).isLt⟩ : Fin 16384) e := by
    funext a; apply Fin.ext
    match a with
    | ⟨0, _⟩ => show win0_0.index t (0 : Fin 2) * 2048 + 1 * p.val = win0_2.index t (0 : Fin 2) * 2048 + 1 * p.val; omega
    | ⟨1, _⟩ => show win0_0.index t (1 : Fin 2) * 128 + 1 * e.val = e.val; omega
  have h1 : ((cfg0.win 1).blk t).view.emb (ix2 e q)
      = ix2 e (⟨(((cfg0.win 2).blk t).view.emb (ix2 p q) 1).val, (((cfg0.win 2).blk t).view.emb (ix2 p q) 1).isLt⟩ : Fin 128) := by
    funext a; apply Fin.ext
    match a with
    | ⟨0, _⟩ => show win0_1.index t (0 : Fin 2) * 128 + 1 * e.val = e.val; omega
    | ⟨1, _⟩ => show win0_1.index t (1 : Fin 2) * 128 + 1 * q.val = win0_2.index t (1 : Fin 2) * 128 + 1 * q.val; omega
  have r0 : iblk0 V c 0 t (ix2 p e)
      = V c main_arg1 (ix2 (⟨(((cfg0.win 2).blk t).view.emb (ix2 p q) 0).val, (((cfg0.win 2).blk t).view.emb (ix2 p q) 0).isLt⟩ : Fin 16384) e) := by
    show V c main_arg1 (((cfg0.win 0).blk t).view.emb (ix2 p e)) = _
    rw [h0]
  have r1 : iblk0 V c 1 t (ix2 e q)
      = V c main_arg2 (ix2 e (⟨(((cfg0.win 2).blk t).view.emb (ix2 p q) 1).val, (((cfg0.win 2).blk t).view.emb (ix2 p q) 1).isLt⟩ : Fin 128)) := by
    show V c main_arg2 (((cfg0.win 1).blk t).view.emb (ix2 e q)) = _
    rw [h1]
  rw [r0, r1]

/-- An index of the output array is in point t's block iff each coordinate is in the block's range on its axis. -/
theorem mem_blk (t : Fin cfg0.N) (i : S16384x128.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_v0).slice (win0_2.rect t)).set ↔ _
  rw [View.set_slice_whole, Rect.mem_set_unit]
  exact Iff.rfl

/-- Row r of the output array is written by point r / 2048. -/
theorem cover (i : S16384x128.Idx) : ∃ t : Fin cfg0.N, (cfg0.win 2).flush t = true ∧ i ∈ ((cfg0.win 2).blk t).view.set := by
  have hi0 : (i 0).val < 16384 := (i 0).isLt
  have hi1 : (i 1).val < 128 := (i 1).isLt
  have hN : cfg0.N = 8 := N_0
  refine ⟨⟨(i 0).val / 2048, by rw [hN]; omega⟩, flush0_2 _, ?_⟩
  obtain ⟨e0, e1, e2, e3, e4, e5⟩ := idx_facts ⟨(i 0).val / 2048, by rw [hN]; omega⟩
  rw [mem_blk]
  intro a
  match a with
  | ⟨0, _⟩ =>
    show win0_2.index _ (0 : Fin 2) * 2048 ≤ (i 0).val ∧ (i 0).val < win0_2.index _ (0 : Fin 2) * 2048 + 2048
    rw [e4]; dsimp only; omega
  | ⟨1, _⟩ =>
    show win0_2.index _ (1 : Fin 2) * 128 ≤ (i 1).val ∧ (i 1).val < win0_2.index _ (1 : Fin 2) * 128 + 128
    rw [e5]; omega

/-- After the region the output array is the support array of the two arrays the region is entered with. -/
theorem final (c : Dev nD) : (dat0 V c).arrAt 2 cfg0.N = support (V c main_arg1) (V c main_arg2) :=
  (dat0 V c).arrAt_eq_of_cover 2 (support (V c main_arg1) (V c main_arg2)) (fun t _ => flushed_eq V c t) cover

end Cert.KernelIdeal.SupportValue

end
-- ==== Proof.AggCases.lean ====
/-
  The second region's body, case by case, as values.

  The body keeps its output block in place across the 16 points of a row block. At the first of them it stores the
  zero block and reads it back; at the others it reads what the point before left. In both cases it then stores that
  block plus the product of the point's adjacency block with the 1024 rows of the support array that the point's
  column tile names. So each case leaves one payload: the accumulate step applied to the adjacency block, the slice of
  the support array, and the block it started from.
-/
import proofs.«133580_j35304631173973_2_alg».proof.Proof.Gen.KernelIdeal.Frame
import Idealize.ShloMosaic.Lib.Pipeline.Value
import Idealize.ShloMosaic.Lib.Tactic

set_option maxRecDepth 16384

noncomputable section

namespace Cert.KernelIdeal.AggCases

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- The 1024 rows of the support array the body reads at grid coordinates i: rows 1024 · i₁ onwards, all 128 columns. -/
abbrev slice (i : grid1.Coords) : Rect S16384x128 :=
  Rect.unit (s := S16384x128) (k1_off1 i) S1024x128.size (k1_off1_inb i)

/-- A later point of a row block: the output block held xo, and the body leaves the accumulate step of xo. -/
theorem out_B (c : Dev nD) (i : grid1.Coords) (a2 : Memref sig .tc .vmem S2048x1024 .f32) (h2 : a2.IsWhole)
    (a3 : Memref sig .tc .vmem S16384x128 .f32) (h3 : a3.IsWhole) (a4 : Memref sig .tc .vmem S2048x128 .f32) (h4 : a4.IsWhole)
    (hc : ¬cond1_0 i) (x0 : Vec F S2048x1024 .f32) (x1 : Vec F S16384x128 .f32) (xo : Vec F S2048x128 .f32) :
    out1_B_2 c i a2 h2 a3 h3 a4 h4 hc x0 x1 xo = k1_pay2 x0 (View.ld x1 (slice i)) xo := by
  unfold out1_B_2
  rw [View.read_writes_eq_canon _ _ _ (cover1_B_2 c i a2 h2 a3 h3 a4 h4 hc x0 x1 xo)]
  unfold kernelRun1_B
  dsimp only
  rw [View.canon_unit_zero hz]
  simp only [View.readAt_eq_ld, h2.read_unread, h3.read_unread, h4.read_unread, View.ld_unit_zero (S := S2048x1024) hz,
    View.ld_unit_zero (S := S2048x128) hz]

/-- The first point of a row block: the body stores the zero block, reads it back, and leaves the accumulate step of it. -/
theorem out_A (c : Dev nD) (i : grid1.Coords) (a2 : Memref sig .tc .vmem S2048x1024 .f32) (h2 : a2.IsWhole)
    (a3 : Memref sig .tc .vmem S16384x128 .f32) (h3 : a3.IsWhole) (a4 : Memref sig .tc .vmem S2048x128 .f32) (h4 : a4.IsWhole)
    (hc : cond1_0 i) (x0 : Vec F S2048x1024 .f32) (x1 : Vec F S16384x128 .f32) :
    out1_A_2 c i a2 h2 a3 h3 a4 h4 hc x0 x1 = k1_pay2 x0 (View.ld x1 (slice i)) (k1_pay1 (F := F)) := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S2048x128) hz]
  simp only [View.readCov_unit_zero (S := S2048x128) _ hz, View.readAt_eq_ld, h2.read_unread, h3.read_unread,
    View.ld_unit_zero (S := S2048x1024) hz, View.ld_unit_zero (S := S2048x128) hz]
  rfl

end Cert.KernelIdeal.AggCases

end
-- ==== Proof.AggValue.lean ====
/-
  The second region's value at the ideal instance.

  Point t of the 8 × 16 grid is row block t / 16 and column tile t mod 16. Its adjacency block is rows
  2048 (t / 16) … and columns 1024 (t mod 16) … of the adjacency array, and the slice of the support array it reads is
  rows 1024 (t mod 16) …. The accumulate step adds, at entry (p, q), the sum over j < 1024 of the adjacency block's
  (p, j) times the slice's (j, q): tile (t mod 16)'s share of entry (2048 (t / 16) + p, q) of the product. So after
  point t the output block holds the first (t mod 16) + 1 tiles' share (an induction on the point: the first point of a
  row block starts from zero, each later one adds its tile to what the point before left), and at the last point of a
  row block, the only ones that write back, it holds all 16 tiles' share, which is the whole sum. The 8 written blocks
  cover the output array, which therefore ends as the product. Stated for any contents V the region is entered with.
-/
import proofs.«133580_j35304631173973_2_alg».proof.Proof.Spec
import proofs.«133580_j35304631173973_2_alg».proof.Proof.LibDotSum
import proofs.«133580_j35304631173973_2_alg».proof.Proof.AggCases
import Idealize.ShloMosaic.Lib.Pipeline.Value
import Idealize.ShloMosaic.Lib.ValueIdx

set_option maxRecDepth 16384

noncomputable section

namespace Cert.KernelIdeal.AggValue

open Cert.KernelIdeal Cert.KernelIdeal.Gen Cert.GraphConv Cert.Lib.TileStats
open Idealize.ShloMosaic Idealize.ShloMosaic.TcCoe Idealize.ShloMosaic.ValueIdx Idealize.SL.Sem
open Idealize.ShloMosaic.Pipeline (Dat)

/-! ## The accumulate step, entry by entry -/

local notation "d1" => dot_S2048x1024_S1024x128_S2048x128_1_0_0_1_n_n

theorem lhs1_0 (i : S2048x128.Idx) (q : (d1).contr.Idx) : ((d1).lhsIdx i q 0).val = (i 0).val := by
  unfold DotDims.lhsIdx
  rw [dif_neg (show ¬(0 : Fin S2048x1024.rank) ∈ (d1).lhsBatch by decide), dif_pos (show (0 : Fin S2048x1024.rank) ∈ (d1).lhsNonContracting by decide)]
  rfl
theorem lhs1_1 (i : S2048x128.Idx) (q : (d1).contr.Idx) : ((d1).lhsIdx i q 1).val = (q ⟨0, by decide⟩).val :=
  (d1).lhsIdx_val_of_single rfl i q
theorem rhs1_0 (i : S2048x128.Idx) (q : (d1).contr.Idx) : ((d1).rhsIdx i q 0).val = (q ⟨0, by decide⟩).val :=
  (d1).rhsIdx_val_of_single rfl i q
theorem rhs1_1 (i : S2048x128.Idx) (q : (d1).contr.Idx) : ((d1).rhsIdx i q 1).val = (i 1).val := by
  unfold DotDims.rhsIdx
  rw [dif_neg (show ¬(1 : Fin S1024x128.rank) ∈ (d1).rhsBatch by decide), dif_pos (show (1 : Fin S1024x128.rank) ∈ (d1).rhsNonContracting by decide)]
  rfl

/-- Entry (p, q) of the accumulate step: the block it started from, plus the sum over the 1024 contracted positions. -/
theorem pay2_apply (v3 : Vec Ideal S2048x1024 .f32) (v8 : Vec Ideal S1024x128 .f32) (v11 : Vec Ideal S2048x128 .f32)
    (p : Fin 2048) (q : Fin 128) :
    k1_pay2 (F := Ideal) v3 v8 v11 (ix2 p q) = v11 (ix2 p q) + ∑ j : Fin 1024, v3 (ix2 p j) * v8 (ix2 j q) := by
  unfold k1_pay2
  refine (addf_apply _ _ (ix2 p q)).trans ?_
  refine congrArg₂ (· + ·) (congrFun (shapeCast_self v11 _) (ix2 p q)) ?_
  refine (DotSum.matmul_zero_eq_sum (d1) 1024 rfl rfl (truncf .bf16 v3 bitsLt_bf16_f32)
    (truncf .bf16 (shapeCast S1024x128 v8 shapeCasts_S1024x128_S1024x128) bitsLt_bf16_f32) (ix2 p q)
    (fun j => ix2 p j) (fun j => ix2 j q) (fun k => ?_) (fun k => ?_)).trans ?_
  · have hk := contrEquiv1_symm_val (d1) 1024 rfl rfl k
    exact funext fun a => Fin.ext (by
      match a with
      | ⟨0, _⟩ => exact lhs1_0 _ _
      | ⟨1, _⟩ => exact (lhs1_1 _ _).trans hk)
  · have hk := contrEquiv1_symm_val (d1) 1024 rfl rfl k
    exact funext fun a => Fin.ext (by
      match a with
      | ⟨0, _⟩ => exact (rhs1_0 _ _).trans hk
      | ⟨1, _⟩ => exact rhs1_1 _ _)
  · refine Finset.sum_congr rfl fun j _ => ?_
    refine congrArg (v3 (ix2 p j) * ·) ?_
    exact congrFun (shapeCast_self v8 _) (ix2 j q)

/-- The block the first point of a row block starts from is zero everywhere. -/
theorem pay1_apply (p : Fin 2048) (q : Fin 128) : k1_pay1 (F := Ideal) (ix2 p q) = 0 := by
  unfold k1_pay1
  show Ideal.ofBits .f32 0x00000000#32 = 0
  exact Ideal.ofBits_zero_f32

/-! ## Where each point reads -/

variable (V : (c : Dev nD) → (b : Ref sig .tc) → Buf (Elt Ideal) ((c : Thread nD τ).loc b))

/-- Row p of row block rb, among 8 blocks of 2048 rows. -/
abbrev rowOf (rb : ℕ) (p : Fin 2048) : Fin 16384 := tileRow 16384 2048 pos16384 rb p

/-- Where each window's block sits at point t, and where the body's slice starts. Decided over the 128 points. -/
theorem idx_facts : ∀ t : Fin cfg1.N, win1_0.index t (0 : Fin 2) = t.val / 16 ∧ win1_0.index t (1 : Fin 2) = t.val % 16
    ∧ win1_1.index t (0 : Fin 2) = 0 ∧ win1_1.index t (1 : Fin 2) = 0
    ∧ win1_2.index t (0 : Fin 2) = t.val / 16 ∧ win1_2.index t (1 : Fin 2) = 0
    ∧ k1_off1 (grid1.coords t) (0 : Fin 2) = 1024 * (t.val % 16) ∧ k1_off1 (grid1.coords t) (1 : Fin 2) = 0 :=
  (by decide +kernel : ∀ t : Fin grid1.N, _)

/-- The adjacency block at point t, entry (p, j): row p of row block t / 16, column j of tile t mod 16. -/
theorem readA (c : Dev nD) (t : Fin cfg1.N) (p : Fin 2048) (j : Fin 1024) :
    iblk1 V c 0 t (ix2 p j) = V c main_arg0 (ix2 (rowOf (t.val / 16) p) (col (t.val % 16) j)) := by
  obtain ⟨e0, e1, -⟩ := idx_facts t
  have hN : t.val < 128 := lt_of_lt_of_eq t.isLt (show cfg1.N = 128 from N_1)
  have hp : p.val < 2048 := p.isLt
  have hj : j.val < 1024 := j.isLt
  show V c main_arg0 (((cfg1.win 0).blk t).view.emb (ix2 p j)) = _
  have h : ((cfg1.win 0).blk t).view.emb (ix2 p j) = ix2 (rowOf (t.val / 16) p) (col (t.val % 16) j) := by
    funext a; apply Fin.ext
    match a with
    | ⟨0, _⟩ =>
      show win1_0.index t (0 : Fin 2) * 2048 + 1 * p.val = (t.val / 16 * 2048 + p.val) % 16384
      rw [e0, Nat.mod_eq_of_lt (show t.val / 16 * 2048 + p.val < 16384 by omega)]; omega
    | ⟨1, _⟩ =>
      show win1_0.index t (1 : Fin 2) * 1024 + 1 * j.val = (t.val % 16 * 1024 + j.val) % 16384
      rw [e1, Nat.mod_eq_of_lt (show t.val % 16 * 1024 + j.val < 16384 by omega)]; omega
  rw [h]

/-- The slice of the support array at point t, entry (j, q): column tile t mod 16's row j, column q. -/
theorem readS (c : Dev nD) (t : Fin cfg1.N) (j : Fin 1024) (q : Fin 128) :
    View.ld (iblk1 V c 1 t) (AggCases.slice (grid1.coords t)) (ix2 j q) = V c main_v0 (ix2 (col (t.val % 16) j) q) := by
  obtain ⟨-, -, e2, e3, -, -, e6, e7⟩ := idx_facts t
  have hN : t.val < 128 := lt_of_lt_of_eq t.isLt (show cfg1.N = 128 from N_1)
  have hj : j.val < 1024 := j.isLt
  have hq : q.val < 128 := q.isLt
  show V c main_v0 (((cfg1.win 1).blk t).view.emb ((AggCases.slice (grid1.coords t)).idx (ix2 j q))) = _
  have h : ((cfg1.win 1).blk t).view.emb ((AggCases.slice (grid1.coords t)).idx (ix2 j q)) = ix2 (col (t.val % 16) j) q := by
    funext a; apply Fin.ext
    match a with
    | ⟨0, _⟩ =>
      show win1_1.index t (0 : Fin 2) * 16384 + 1 * (k1_off1 (grid1.coords t) (0 : Fin 2) + 1 * j.val) = (t.val % 16 * 1024 + j.val) % 16384
      rw [e2, e6, Nat.mod_eq_of_lt (show t.val % 16 * 1024 + j.val < 16384 by omega)]; omega
    | ⟨1, _⟩ =>
      show win1_1.index t (1 : Fin 2) * 128 + 1 * (k1_off1 (grid1.coords t) (1 : Fin 2) + 1 * q.val) = q.val
      rw [e3, e7]; omega
  rw [h]

/-- The accumulate step at point t, entry (p, q): the block it started from plus tile t mod 16's share. -/
theorem step (c : Dev nD) (t : Fin cfg1.N) (xo : Vec Ideal S2048x128 .f32) (p : Fin 2048) (q : Fin 128) :
    k1_pay2 (F := Ideal) (iblk1 V c 0 t) (View.ld (iblk1 V c 1 t) (AggCases.slice (grid1.coords t))) xo (ix2 p q)
      = xo (ix2 p q) + tileTerm (V c main_arg0) (V c main_v0) (rowOf (t.val / 16) p) q (t.val % 16) := by
  refine (pay2_apply (iblk1 V c 0 t) (View.ld (iblk1 V c 1 t) (AggCases.slice (grid1.coords t))) xo p q).trans ?_
  refine congrArg (xo (ix2 p q) + ·) ?_
  unfold tileTerm
  refine Finset.sum_congr rfl fun j _ => ?_
  rw [readA V c t p j, readS V c t j q]

/-! ## What the output block holds after each point -/

/-- At the first point of a row block the body leaves the accumulate step of the zero block. -/
theorem outsAt_A (c : Dev nD) (t : Fin cfg1.N) (h0 : t.val % 16 = 0) :
    outsAt1 V c t.val t.isLt
      = k1_pay2 (iblk1 V c 0 t) (View.ld (iblk1 V c 1 t) (AggCases.slice (grid1.coords t))) (k1_pay1 (F := Ideal)) :=
  (outsAt1_A V c t h0).trans
    (AggCases.out_A c (grid1.coords t) (ms1_0 t) (hs1_0 t) (ms1_1 t) (hs1_1 t) (ms1_2 t) (hs1_2 t) ((hcond1_0 t).mpr h0)
      (iblk1 V c 0 t) (iblk1 V c 1 t))

/-- At a later point it leaves the accumulate step of what the point before left. -/
theorem outsAt_B (c : Dev nD) (t : Fin cfg1.N) (h0 : ¬t.val % 16 = 0) :
    outsAt1 V c t.val t.isLt
      = k1_pay2 (iblk1 V c 0 t) (View.ld (iblk1 V c 1 t) (AggCases.slice (grid1.coords t)))
          (outsAt1 V c (t.val - 1) (Nat.lt_of_le_of_lt (Nat.sub_le _ _) t.isLt)) :=
  (outsAt1_B V c t h0).trans
    (AggCases.out_B c (grid1.coords t) (ms1_0 t) (hs1_0 t) (ms1_1 t) (hs1_1 t) (ms1_2 t) (hs1_2 t) (fun h => h0 ((hcond1_0 t).mp h))
      (iblk1 V c 0 t) (iblk1 V c 1 t) (outsAt1 V c (t.val - 1) (Nat.lt_of_le_of_lt (Nat.sub_le _ _) t.isLt)))

/-- After point n the output block holds, at entry (p, q), the first (n mod 16) + 1 tiles' share of entry
    (row p of row block n / 16, q) of the product. -/
theorem outsAt_eq (c : Dev nD) : ∀ (n : ℕ) (h : n < cfg1.N) (p : Fin 2048) (q : Fin 128),
    outsAt1 V c n h (ix2 p q) = aggTiles (n % 16 + 1) (V c main_arg0) (V c main_v0) (rowOf (n / 16) p) q
  | 0, h, p, q => by
    refine (congrFun (outsAt_A V c ⟨0, h⟩ rfl) (ix2 p q)).trans ?_
    refine (step V c ⟨0, h⟩ _ p q).trans ?_
    rw [pay1_apply]
    exact aggTiles_one _ _ _ _
  | n + 1, h, p, q => by
    have hN : n + 1 < 128 := lt_of_lt_of_eq h (show cfg1.N = 128 from N_1)
    by_cases h0 : (n + 1) % 16 = 0
    · refine (congrFun (outsAt_A V c ⟨n + 1, h⟩ h0) (ix2 p q)).trans ?_
      refine (step V c ⟨n + 1, h⟩ _ p q).trans ?_
      rw [pay1_apply]
      show (0 : EReal) + tileTerm _ _ (rowOf ((n + 1) / 16) p) q ((n + 1) % 16) = aggTiles ((n + 1) % 16 + 1) _ _ _ _
      rw [h0]
      exact aggTiles_one _ _ _ _
    · refine (congrFun (outsAt_B V c ⟨n + 1, h⟩ h0) (ix2 p q)).trans ?_
      refine (step V c ⟨n + 1, h⟩ _ p q).trans ?_
      show outsAt1 V c n _ (ix2 p q) + tileTerm _ _ (rowOf ((n + 1) / 16) p) q ((n + 1) % 16) = _
      rw [outsAt_eq c n _ p q]
      have e1 : (n + 1) / 16 = n / 16 := by omega
      have e2 : (n + 1) % 16 = n % 16 + 1 := by omega
      rw [e1, e2]
      exact aggTiles_succ _ _ _ _ _

/-! ## Blocks to the array -/

set_option maxRecDepth 65536 in
/-- What a writing point (the last of its row block) writes back is its block of the product. -/
theorem flushed_eq (c : Dev nD) (t : Fin cfg1.N) (hf : (cfg1.win 2).flush t = true) :
    (dat1 V c).flushed 2 t = ((cfg1.win 2).blk t).view.read (Elt Ideal) (agg (V c main_arg0) (V c main_v0)) := by
  have hN : t.val < 128 := lt_of_lt_of_eq t.isLt (show cfg1.N = 128 from N_1)
  have h15 : t.val % 16 = 15 := (flush1_2 t).mp hf
  obtain ⟨-, -, -, -, e4, e5, -⟩ := idx_facts t
  show (cfg1.win 2).cut (grid1.coords t) ((dat1 V c).after 2 t) = _
  rw [after1_2]
  funext j
  obtain ⟨p, q, rfl⟩ : ∃ (p : Fin 2048) (q : Fin 128), j = ix2 p q := ⟨j 0, j 1, eq_ix2 j⟩
  have hp : p.val < 2048 := p.isLt
  refine Eq.trans (b := outsAt1 V c t.val t.isLt (ix2 p q)) rfl ?_
  refine (outsAt_eq V c t.val t.isLt p q).trans ?_
  show _ = agg (V c main_arg0) (V c main_v0) (((cfg1.win 2).blk t).view.emb (ix2 p q))
  rw [h15]
  refine (aggTiles_all _ _ _ _).trans ?_
  unfold agg
  have r0 : rowOf (t.val / 16) p
      = (⟨(((cfg1.win 2).blk t).view.emb (ix2 p q) 0).val, (((cfg1.win 2).blk t).view.emb (ix2 p q) 0).isLt⟩ : Fin 16384) :=
    Fin.ext (by
      show (t.val / 16 * 2048 + p.val) % 16384 = win1_2.index t (0 : Fin 2) * 2048 + 1 * p.val
      rw [e4, Nat.mod_eq_of_lt (show t.val / 16 * 2048 + p.val < 16384 by omega)]; omega)
  have r1 : q = (⟨(((cfg1.win 2).blk t).view.emb (ix2 p q) 1).val, (((cfg1.win 2).blk t).view.emb (ix2 p q) 1).isLt⟩ : Fin 128) :=
    Fin.ext (by
      show q.val = win1_2.index t (1 : Fin 2) * 128 + 1 * q.val
      rw [e5]; omega)
  exact congrArg₂ (aggAt (V c main_arg0) (V c main_v0)) r0 r1

/-- An index of the output array is in point t's block iff each coordinate is in the block's range on its axis. -/
theorem mem_blk (t : Fin cfg1.N) (i : S16384x128.Idx) :
    i ∈ ((cfg1.win 2).blk t).view.set ↔ ∀ a : Fin 2, win1_2.index t a * S2048x128.size a ≤ (i a).val ∧ (i a).val < win1_2.index t a * S2048x128.size a + S2048x128.size a := by
  show i ∈ ((View.whole main_v1).slice (win1_2.rect t)).set ↔ _
  rw [View.set_slice_whole, Rect.mem_set_unit]
  exact Iff.rfl

/-- Row r of the output array is written by the last point of row block r / 2048. -/
theorem cover (i : S16384x128.Idx) : ∃ t : Fin cfg1.N, (cfg1.win 2).flush t = true ∧ i ∈ ((cfg1.win 2).blk t).view.set := by
  have hi0 : (i 0).val < 16384 := (i 0).isLt
  have hi1 : (i 1).val < 128 := (i 1).isLt
  have hN : cfg1.N = 128 := N_1
  have hlt : (i 0).val / 2048 * 16 + 15 < cfg1.N := by rw [hN]; omega
  obtain ⟨-, -, -, -, e4, e5, -⟩ := idx_facts ⟨(i 0).val / 2048 * 16 + 15, hlt⟩
  refine ⟨⟨(i 0).val / 2048 * 16 + 15, hlt⟩, (flush1_2 _).mpr (by dsimp only; omega), ?_⟩
  rw [mem_blk]
  intro a
  match a with
  | ⟨0, _⟩ =>
    show win1_2.index _ (0 : Fin 2) * 2048 ≤ (i 0).val ∧ (i 0).val < win1_2.index _ (0 : Fin 2) * 2048 + 2048
    rw [e4]; dsimp only; omega
  | ⟨1, _⟩ =>
    show win1_2.index _ (1 : Fin 2) * 128 ≤ (i 1).val ∧ (i 1).val < win1_2.index _ (1 : Fin 2) * 128 + 128
    rw [e5]; omega

/-- After the region the output array is the product of the adjacency array and the support array it is entered with. -/
theorem final (c : Dev nD) : (dat1 V c).arrAt 2 cfg1.N = agg (V c main_arg0) (V c main_v0) :=
  (dat1 V c).arrAt_eq_of_cover 2 (agg (V c main_arg0) (V c main_v0)) (fun t hf => flushed_eq V c t hf) cover

end Cert.KernelIdeal.AggValue

end
-- ==== Proof.KernelValue.lean ====
/-
  The kernel program's result, at the ideal instance, is agg A (support X W) of its three argument arrays.

  The second region is entered with the adjacency array as launched (the first region does not touch it) and with the
  first region's output array, which is the support array of the feature and weight arrays as launched. The second
  region's output array, which the program returns, ends as the product of those two.
-/
import proofs.«133580_j35304631173973_2_alg».proof.Proof.KRun
import proofs.«133580_j35304631173973_2_alg».proof.Proof.Support
import proofs.«133580_j35304631173973_2_alg».proof.Proof.AggValue

set_option maxRecDepth 16384

noncomputable section

namespace Cert.KernelIdeal.KernelValue

open Cert.KernelIdeal Cert.KernelIdeal.Gen Cert.GraphConv
open Idealize.ShloMosaic Idealize.ShloMosaic.TcCoe Idealize.SL.Sem

variable (m : (ℓ : Loc nD τ sig) → Buf (Elt Ideal) ℓ) (ρ : Dev nD → PrngReg)

/-- The second region finds the adjacency array as launched. -/
theorem entry_arg0 (c : Dev nD) : V1 m ρ c main_arg0 = m ((c.tc : Thread nD τ).loc main_arg0) :=
  W1_of_ne m ρ c main_arg0 (by decide)

/-- The second region finds the first region's output at the support array of the launched feature and weight arrays. -/
theorem entry_v0 (c : Dev nD) :
    V1 m ρ c main_v0 = support (m ((c.tc : Thread nD τ).loc main_arg1)) (m ((c.tc : Thread nD τ).loc main_arg2)) :=
  (W1_arr m ρ c 2).trans (SupportValue.final (V0 m ρ) c)

/-- So the second region's output array ends as the product of the launched adjacency array with that support array. -/
theorem result (c : Dev nD) : (dat1 (V1 m ρ) c).arrAt 2 cfg1.N
    = agg (m ((c.tc : Thread nD τ).loc main_arg0))
        (support (m ((c.tc : Thread nD τ).loc main_arg1)) (m ((c.tc : Thread nD τ).loc main_arg2))) := by
  rw [AggValue.final (V1 m ρ) c, entry_arg0, entry_v0]

/-- The run, read: the result array at the product, the argument arrays unchanged. -/
theorem run : θ_run defs (onTc (τ := τ) (main (F := Ideal))) ⟨m, fun _ => 0, ρ⟩ (fun r => ∀ c : Dev nD,
      r.2.mem ((c.tc : Thread nD τ).loc main_v1)
        = agg (m ((c.tc : Thread nD τ).loc main_arg0))
            (support (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result m ρ c), (h c).2⟩) (KRun.run_named m ρ)

end Cert.KernelIdeal.KernelValue

end
-- ==== Proof.lean ====
/-
  A graph-convolution layer: output = A · (X · W) for an adjacency array A [16384, 16384], features X [16384, 128] and
  weights W [128, 128].

  The kernel program computes it in two regions. The first computes the support array X · W, 2048 rows at a time, each
  block one matrix product into a zero accumulator. The second computes A · support, one 2048-row block of the output
  at a time, accumulated in place over 16 column tiles of 1024: the block is zeroed at the first tile and each tile adds
  the product of its 2048 × 1024 piece of A with the matching 1024 rows of the support array. The reference computes
  the same two products whole. On the extended reals a change of float format is the identity and a matrix product is a
  plain sum, so the two results differ only in how the sum over the 16384 columns is grouped: 16 tiles of 1024 summed one
  after another from zero, against one sum. Addition of extended reals is commutative and associative, so the two are
  equal for all inputs; the precondition that the inputs are finite is not used.

  Both kernel frames are the generated ones. The reference's frame and value are its generated run read back. The
  idealization rewrote nothing, so there is nothing to preserve.
-/
import proofs.«133580_j35304631173973_2_alg».proof.Defs
import proofs.«133580_j35304631173973_2_alg».proof.Proof.Gen.Kernel
import proofs.«133580_j35304631173973_2_alg».proof.Proof.Gen.Kernel.Skeleton
import proofs.«133580_j35304631173973_2_alg».proof.Proof.Gen.Kernel.Launch
import proofs.«133580_j35304631173973_2_alg».proof.Proof.Gen.Kernel.Points
import proofs.«133580_j35304631173973_2_alg».proof.Proof.Gen.Kernel.Frame
import proofs.«133580_j35304631173973_2_alg».proof.Proof.Gen.KernelIdeal
import proofs.«133580_j35304631173973_2_alg».proof.Proof.Gen.KernelIdeal.Skeleton
import proofs.«133580_j35304631173973_2_alg».proof.Proof.Gen.KernelIdeal.Launch
import proofs.«133580_j35304631173973_2_alg».proof.Proof.Gen.KernelIdeal.Points
import proofs.«133580_j35304631173973_2_alg».proof.Proof.Gen.KernelIdeal.Frame
import proofs.«133580_j35304631173973_2_alg».proof.Proof.Gen.ReferenceIdeal
import proofs.«133580_j35304631173973_2_alg».proof.Proof.Gen.ReferenceIdeal.Run
import proofs.«133580_j35304631173973_2_alg».proof.Proof.Gen.ReferenceIdeal.Read
import proofs.«133580_j35304631173973_2_alg».proof.Proof.Gen.Pre_finite_inputs
import proofs.«133580_j35304631173973_2_alg».proof.Proof.RefValue
import proofs.«133580_j35304631173973_2_alg».proof.Proof.KernelValue
import Idealize.ShloMosaic.Adequacy
import Idealize.ShloMosaic.Init

noncomputable section

namespace Cert.Proof

open Idealize.ShloMosaic Idealize.SL.Sem Cert.GraphConv

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the product of the adjacency array with the support array, of
    argument arrays that agree. -/
theorem algebraic : Cert.algebraic_KernelIdeal_ReferenceIdeal := by
  intro m ρ m' ρ' _ hagree
  refine ⟨fun c => agg (m ((c.tc : Thread Cert.KernelIdeal.nD Cert.KernelIdeal.τ).loc Cert.KernelIdeal.main_arg0))
      (support (m ((c.tc : Thread Cert.KernelIdeal.nD Cert.KernelIdeal.τ).loc Cert.KernelIdeal.main_arg1))
        (m ((c.tc : Thread Cert.KernelIdeal.nD Cert.KernelIdeal.τ).loc Cert.KernelIdeal.main_arg2))),
    Cert.KernelIdeal.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v1_eq, Cert.ReferenceIdeal.RefValue.val_v1_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
